-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x16x4x64x512 : Shape := ⟨6, ![2, 16, 16, 4, 64, 512]⟩
abbrev S32x64 : Shape := ⟨2, ![32, 64]⟩
abbrev S32 : Shape := ⟨1, ![32]⟩
abbrev S64x32 : Shape := ⟨2, ![64, 32]⟩
abbrev S64 : Shape := ⟨1, ![64]⟩
abbrev S32x128 : Shape := ⟨2, ![32, 128]⟩
abbrev S_ : Shape := ⟨0, ![]⟩

class Facts : Prop where
  bcast_S_S2x16x16x4x64x512 : S_.BroadcastsInDim S2x16x16x4x64x512 (![] : Fin 0 → Fin S2x16x16x4x64x512.rank)
  reducesTo_S2x16x16x4x64x512_S_d0_1_2_3_4_5 : S2x16x16x4x64x512.ReducesTo [0, 1, 2, 3, 4, 5] S_
  h_S_ : 0 < S_.numel
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S32x128 : S_.BroadcastsInDim S32x128 (![] : Fin 0 → Fin S32x128.rank)
  reducesTo_S32x128_S_d0_1 : S32x128.ReducesTo [0, 1] S_

variable [Facts]

def fn_part1 {F : FTy → Type} [FloatOps F] (main_arg4 : FVec F S64 .f32) (main_arg5 : FVec F S32x128 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S32x128 .f32 := Host.absf main_arg5
  let main_cst_8 : FVec F S_ .f32 := constant S_ .f32 0x7F800000#32
  let main_v25 : FVec F S32x128 .f32 := broadcastInDim S32x128 ![] bcast_S_S32x128 main_cst_8
  let main_v26 : IVec S32x128 1 := cmpf .olt main_v24 main_v25
  let main_c_9 : IVec S_ 1 := constantI S_ 1 1#1
  let main_v27 : IVec S_ 1 := (fun x v => Host.reduce IntOp.andi x v reducesTo_S32x128_S_d0_1 h_S_) main_v26 main_c_9
  let main_v28 : IVec S_ 1 := andi main_v23 main_v27
  main_v28

def fn {F : FTy → Type} [FloatOps F] (main_arg0 : FVec F S2x16x16x4x64x512 .f32) (main_arg1 : FVec F S32x64 .f32) (main_arg2 : FVec F S32 .f32) (main_arg3 : FVec F S64x32 .f32) (main_arg4 : FVec F S64 .f32) (main_arg5 : FVec F S32x128 .f32) : IVec S_ 1 :=
  let main_v0 : FVec F S2x16x16x4x64x512 .f32 := Host.absf main_arg0
  let main_cst : FVec F S_ .f32 := constant S_ .f32 0x7F800000#32
  let main_v1 : FVec F S2x16x16x4x64x512 .f32 := broadcastInDim S2x16x16x4x64x512 ![] bcast_S_S2x16x16x4x64x512 main_cst
  let main_v2 : IVec S2x16x16x4x64x512 1 := cmpf .olt main_v0 main_v1
  let main_c : IVec S_ 1 := constantI S_ 1 1#1
  let main_v3 : IVec S_ 1 := (fun x v => Host.reduce IntOp.andi x v reducesTo_S2x16x16x4x64x512_S_d0_1_2_3_4_5 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_arg5 main_v13 main_v16
-- ==== Kernel.lean ====
abbrev S2x16x16x4x64x512 : Shape := ⟨6, ![2, 16, 16, 4, 64, 512]⟩
abbrev S32x64 : Shape := ⟨2, ![32, 64]⟩
abbrev S32 : Shape := ⟨1, ![32]⟩
abbrev S64x32 : Shape := ⟨2, ![64, 32]⟩
abbrev S64 : Shape := ⟨1, ![64]⟩
abbrev S32x128 : Shape := ⟨2, ![32, 128]⟩
abbrev S2048x64x512 : Shape := ⟨3, ![2048, 64, 512]⟩
abbrev S64x64x512 : Shape := ⟨3, ![64, 64, 512]⟩
abbrev S64x64 : Shape := ⟨2, ![64, 64]⟩
abbrev S1x32 : Shape := ⟨2, ![1, 32]⟩
abbrev S64x128 : Shape := ⟨2, ![64, 128]⟩
abbrev S64x1 : Shape := ⟨2, ![64, 1]⟩
abbrev S128x32 : Shape := ⟨2, ![128, 32]⟩
abbrev S1x64 : Shape := ⟨2, ![1, 64]⟩
abbrev S64x64x1 : Shape := ⟨3, ![64, 64, 1]⟩

abbrev nBuf : Space → Nat
  | .hbm => 9
  | .vmem => 9
  | .smem => 0
  | _ => 0

abbrev bufTy : (tb : Table) → Fin (tcTables nBuf tb) → BufTy
  | .hbm, ⟨0, _⟩ => ⟨S2x16x16x4x64x512, .f32⟩
  | .hbm, ⟨1, _⟩ => ⟨S32x64, .f32⟩
  | .hbm, ⟨2, _⟩ => ⟨S32, .f32⟩
  | .hbm, ⟨3, _⟩ => ⟨S64x32, .f32⟩
  | .hbm, ⟨4, _⟩ => ⟨S64, .f32⟩
  | .hbm, ⟨5, _⟩ => ⟨S32x128, .f32⟩
  | .hbm, ⟨6, _⟩ => ⟨S2048x64x512, .f32⟩
  | .hbm, ⟨7, _⟩ => ⟨S2048x64x512, .f32⟩
  | .hbm, ⟨8, _⟩ => ⟨S2x16x16x4x64x512, .f32⟩
  | .local _ .vmem, ⟨0, _⟩ => ⟨S64x64x512, .f32⟩
  | .local _ .vmem, ⟨1, _⟩ => ⟨S64x64x512, .f32⟩
  | .local _ .vmem, ⟨2, _⟩ => ⟨S32x64, .f32⟩
  | .local _ .vmem, ⟨3, _⟩ => ⟨S32, .f32⟩
  | .local _ .vmem, ⟨4, _⟩ => ⟨S64x32, .f32⟩
  | .local _ .vmem, ⟨5, _⟩ => ⟨S64, .f32⟩
  | .local _ .vmem, ⟨6, _⟩ => ⟨S32x128, .f32⟩
  | .local _ .vmem, ⟨7, _⟩ => ⟨S64x64x512, .f32⟩
  | .local _ .vmem, ⟨8, _⟩ => ⟨S64x64x512, .f32⟩
  | _, _ => ⟨S2x16x16x4x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S2x16x16x4x64x512_S2048x64x512 : S2x16x16x4x64x512.ShapeCasts S2048x64x512
  inb_S64x64x512_S64x64x512_0_0_0 : ∀ a, (![0, 0, 0] : Fin 3 → Nat) a + S64x64x512.size a ≤ S64x64x512.size a
  h_S64x64x512 : 0 < S64x64x512.numel
  shapeCasts_S64x64x512_S64x64x512 : S64x64x512.ShapeCasts S64x64x512
  reduces_S64x64x512_S64x64 : S64x64x512.Reduces [2] S64x64
  inb_S32x64_S32x64_0_0 : ∀ a, (![0, 0] : Fin 2 → Nat) a + S32x64.size a ≤ S32x64.size a
  h_S32x64 : 0 < S32x64.numel
  inb_S32_S32_0 : ∀ a, (![0] : Fin 1 → Nat) a + S32.size a ≤ S32.size a
  h_S32 : 0 < S32.numel
  transposes_S32x64_p1_0_S64x32 : S32x64.Transposes [1, 0] S64x32
  shapeCasts_S32_S1x32 : S32.ShapeCasts S1x32
  broadcasts_S1x32_S64x32 : S1x32.Broadcasts S64x32
  inb_S32x128_S32x128_0_0 : ∀ a, (![0, 0] : Fin 2 → Nat) a + S32x128.size a ≤ S32x128.size a
  h_S32x128 : 0 < S32x128.numel
  reduces_S64x128_S64 : S64x128.Reduces [1] S64
  shapeCasts_S64_S64x1 : S64.ShapeCasts S64x1
  broadcasts_S64x1_S64x128 : S64x1.Broadcasts S64x128
  transposes_S32x128_p1_0_S128x32 : S32x128.Transposes [1, 0] S128x32
  inb_S64x32_S64x32_0_0 : ∀ a, (![0, 0] : Fin 2 → Nat) a + S64x32.size a ≤ S64x32.size a
  h_S64x32 : 0 < S64x32.numel
  inb_S64_S64_0 : ∀ a, (![0] : Fin 1 → Nat) a + S64.size a ≤ S64.size a
  h_S64 : 0 < S64.numel
  transposes_S64x32_p1_0_S32x64 : S64x32.Transposes [1, 0] S32x64
  shapeCasts_S64_S1x64 : S64.ShapeCasts S1x64
  broadcasts_S1x64_S64x64 : S1x64.Broadcasts S64x64
  shapeCasts_S64x64_S64x64x1 : S64x64.ShapeCasts S64x64x1
  broadcasts_S64x64x1_S64x64x512 : S64x64x1.Broadcasts S64x64x512
  shapeCasts_S2048x64x512_S2x16x16x4x64x512 : S2048x64x512.ShapeCasts S2x16x16x4x64x512
  dot_S64x64_S64x32_S64x32_1_0_0_1_n_n_wf : DotDims.WF S64x64 S64x32 S64x32 [1] [0] [0] [1] [] []
  dot_S64x32_S32x128_S64x128_1_0_0_1_n_n_wf : DotDims.WF S64x32 S32x128 S64x128 [1] [0] [0] [1] [] []
  dot_S64x128_S128x32_S64x32_1_0_0_1_n_n_wf : DotDims.WF S64x128 S128x32 S64x32 [1] [0] [0] [1] [] []
  dot_S64x32_S32x64_S64x64_1_0_0_1_n_n_wf : DotDims.WF S64x32 S32x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x512.size a ≤ S2048x64x512.size a
  hwx0_0 : ∀ i : grid0.Coords, EltTy.bits .f32 = 32 ∨ (Rect.block (s := S2048x64x512) S64x64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x64x512.size a ≤ S2048x64x512.size a
  hwx0_6 : ∀ i : grid0.Coords, EltTy.bits .f32 = 32 ∨ (Rect.block (s := S2048x64x512) S64x64x512.size (cc0_transform_6 i) (hinb0_6 i)).WholeWords (EltTy.packing .f32)

variable [Facts₀]

def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x128_S64x128_1_0_0_1_n_n : DotDims S64x32 S32x128 S64x128 where
  lhsContracting := [1]
  rhsContracting := [0]
  lhsNonContracting := [0]
  rhsNonContracting := [1]
  lhsBatch := []
  rhsBatch := []
  wf := dot_S64x32_S32x128_S64x128_1_0_0_1_n_n_wf
def dot_S64x128_S128x32_S64x32_1_0_0_1_n_n : DotDims S64x128 S128x32 S64x32 where
  lhsContracting := [1]
  rhsContracting := [0]
  lhsNonContracting := [0]
  rhsNonContracting := [1]
  lhsBatch := []
  rhsBatch := []
  wf := dot_S64x128_S128x32_S64x32_1_0_0_1_n_n_wf
def dot_S64x32_S32x64_S64x64_1_0_0_1_n_n : DotDims S64x32 S32x64 S64x64 where
  lhsContracting := [1]
  rhsContracting := [0]
  lhsNonContracting := [0]
  rhsNonContracting := [1]
  lhsBatch := []
  rhsBatch := []
  wf := dot_S64x32_S32x64_S64x64_1_0_0_1_n_n_wf

abbrev win0_0 : Pipeline.Window sig grid0 :=
  Pipeline.Window.ofSpec (Memref.whole main_v0) S64x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S64x64x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x16x16x4x64x512 : Shape := ⟨6, ![2, 16, 16, 4, 64, 512]⟩
abbrev S32x64 : Shape := ⟨2, ![32, 64]⟩
abbrev S32 : Shape := ⟨1, ![32]⟩
abbrev S64x32 : Shape := ⟨2, ![64, 32]⟩
abbrev S64 : Shape := ⟨1, ![64]⟩
abbrev S32x128 : Shape := ⟨2, ![32, 128]⟩
abbrev S2048x64x512 : Shape := ⟨3, ![2048, 64, 512]⟩
abbrev S_ : Shape := ⟨0, ![]⟩
abbrev S2048x64 : Shape := ⟨2, ![2048, 64]⟩
abbrev S2048x32 : Shape := ⟨2, ![2048, 32]⟩
abbrev S1x32 : Shape := ⟨2, ![1, 32]⟩
abbrev S2048x128 : Shape := ⟨2, ![2048, 128]⟩
abbrev S2048 : Shape := ⟨1, ![2048]⟩
abbrev S2048x1 : Shape := ⟨2, ![2048, 1]⟩
abbrev S128x32 : Shape := ⟨2, ![128, 32]⟩
abbrev S1x64 : Shape := ⟨2, ![1, 64]⟩
abbrev S2x16x16x4x64x1 : Shape := ⟨6, ![2, 16, 16, 4, 64, 1]⟩

abbrev nBuf : Space → Nat
  | .hbm => 53
  | .vmem => 0
  | .smem => 0
  | _ => 0

abbrev bufTy : (tb : Table) → Fin (tcTables nBuf tb) → BufTy
  | .hbm, ⟨0, _⟩ => ⟨S2x16x16x4x64x512, .f32⟩
  | .hbm, ⟨1, _⟩ => ⟨S32x64, .f32⟩
  | .hbm, ⟨2, _⟩ => ⟨S32, .f32⟩
  | .hbm, ⟨3, _⟩ => ⟨S64x32, .f32⟩
  | .hbm, ⟨4, _⟩ => ⟨S64, .f32⟩
  | .hbm, ⟨5, _⟩ => ⟨S32x128, .f32⟩
  | .hbm, ⟨6, _⟩ => ⟨S2048x64x512, .f32⟩
  | .hbm, ⟨7, _⟩ => ⟨S_, .f32⟩
  | .hbm, ⟨8, _⟩ => ⟨S2048x64, .f32⟩
  | .hbm, ⟨9, _⟩ => ⟨S_, .f32⟩
  | .hbm, ⟨10, _⟩ => ⟨S2048x64, .f32⟩
  | .hbm, ⟨11, _⟩ => ⟨S2048x64, .f32⟩
  | .hbm, ⟨12, _⟩ => ⟨S64x32, .f32⟩
  | .hbm, ⟨13, _⟩ => ⟨S2048x32, .f32⟩
  | .hbm, ⟨14, _⟩ => ⟨S1x32, .f32⟩
  | .hbm, ⟨15, _⟩ => ⟨S2048x32, .f32⟩
  | .hbm, ⟨16, _⟩ => ⟨S2048x32, .f32⟩
  | .hbm, ⟨17, _⟩ => ⟨S2048x128, .f32⟩
  | .hbm, ⟨18, _⟩ => ⟨S_, .f32⟩
  | .hbm, ⟨19, _⟩ => ⟨S2048x128, .f32⟩
  | .hbm, ⟨20, _⟩ => ⟨S2048x128, .f32⟩
  | .hbm, ⟨21, _⟩ => ⟨S_, .f32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S2048x1, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x128, .f32⟩
  | .hbm, ⟨34, _⟩ => ⟨S2048x128, .f32⟩
  | .hbm, ⟨35, _⟩ => ⟨S128x32, .f32⟩
  | .hbm, ⟨36, _⟩ => ⟨S2048x32, .f32⟩
  | .hbm, ⟨37, _⟩ => ⟨S32x64, .f32⟩
  | .hbm, ⟨38, _⟩ => ⟨S2048x64, .f32⟩
  | .hbm, ⟨39, _⟩ => ⟨S1x64, .f32⟩
  | .hbm, ⟨40, _⟩ => ⟨S2048x64, .f32⟩
  | .hbm, ⟨41, _⟩ => ⟨S2048x64, .f32⟩
  | .hbm, ⟨42, _⟩ => ⟨S2048x64, .f32⟩
  | .hbm, ⟨43, _⟩ => ⟨S2048x64, .f32⟩
  | .hbm, ⟨44, _⟩ => ⟨S_, .f32⟩
  | .hbm, ⟨45, _⟩ => ⟨S2048x64, .f32⟩
  | .hbm, ⟨46, _⟩ => ⟨S2048x64, .f32⟩
  | .hbm, ⟨47, _⟩ => ⟨S_, .f32⟩
  | .hbm, ⟨48, _⟩ => ⟨S2048x64, .f32⟩
  | .hbm, ⟨49, _⟩ => ⟨S2048x64, .f32⟩
  | .hbm, ⟨50, _⟩ => ⟨S2x16x16x4x64x1, .f32⟩
  | .hbm, ⟨51, _⟩ => ⟨S2x16x16x4x64x512, .f32⟩
  | .hbm, ⟨52, _⟩ => ⟨S2x16x16x4x64x512, .f32⟩
  | _, _ => ⟨S2x16x16x4x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]

class Facts₀ : Prop where
  shapeCasts_S2x16x16x4x64x512_S2048x64x512 : S2x16x16x4x64x512.ShapeCasts S2048x64x512
  reducesTo_S2048x64x512_S2048x64_d2 : S2048x64x512.ReducesTo [2] S2048x64
  h_S_ : 0 < S_.numel
  bcast_S_S2048x64 : S_.BroadcastsInDim S2048x64 (![] : Fin 0 → Fin S2048x64.rank)
  transposes_S32x64_S64x32_1_0 : S32x64.Transposes [1, 0] S64x32
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  bcast_S_S2048x128 : S_.BroadcastsInDim S2048x128 (![] : Fin 0 → Fin S2048x128.rank)
  reducesTo_S2048x128_S2048_d1 : S2048x128.ReducesTo [1] S2048
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  transposes_S32x128_S128x32_1_0 : S32x128.Transposes [1, 0] S128x32
  transposes_S64x32_S32x64_1_0 : S64x32.Transposes [1, 0] S32x64
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  shapeCasts_S2048x64_S2x16x16x4x64x1 : S2048x64.ShapeCasts S2x16x16x4x64x1
  bcast_S2x16x16x4x64x1_S2x16x16x4x64x512_0_1_2_3_4_5 : S2x16x16x4x64x1.BroadcastsInDim S2x16x16x4x64x512 (![0, 1, 2, 3, 4, 5] : Fin 6 → Fin S2x16x16x4x64x512.rank)
  dot_S2048x64_S64x32_S2048x32_1_0_0_1_n_n_wf : DotDims.WF S2048x64 S64x32 S2048x32 [1] [0] [0] [1] [] []
  dot_S2048x32_S32x128_S2048x128_1_0_0_1_n_n_wf : DotDims.WF S2048x32 S32x128 S2048x128 [1] [0] [0] [1] [] []
  dot_S2048x128_S128x32_S2048x32_1_0_0_1_n_n_wf : DotDims.WF S2048x128 S128x32 S2048x32 [1] [0] [0] [1] [] []
  dot_S2048x32_S32x64_S2048x64_1_0_0_1_n_n_wf : DotDims.WF S2048x32 S32x64 S2048x64 [1] [0] [0] [1] [] []

variable [Facts₀]

def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x128_S2048x128_1_0_0_1_n_n : DotDims S2048x32 S32x128 S2048x128 where
  lhsContracting := [1]
  rhsContracting := [0]
  lhsNonContracting := [0]
  rhsNonContracting := [1]
  lhsBatch := []
  rhsBatch := []
  wf := dot_S2048x32_S32x128_S2048x128_1_0_0_1_n_n_wf
def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf
def dot_S2048x32_S32x64_S2048x64_1_0_0_1_n_n : DotDims S2048x32 S32x64 S2048x64 where
  lhsContracting := [1]
  rhsContracting := [0]
  lhsNonContracting := [0]
  rhsNonContracting := [1]
  lhsBatch := []
  rhsBatch := []
  wf := dot_S2048x32_S32x64_S2048x64_1_0_0_1_n_n_wf

class Facts : Prop extends Facts₀ where

variable [Facts]
-- ==== Proof.Gate.lean ====
/-
  The channel-attention gate of one row, as a function of that row's slice of the input and of the five
  parameter arrays, on the extended reals.

  For one row (a fixed position of the flattened batch axis) let xr be its 64 × 512 slice.  Then
    pooled n   = (∑ c, xr n c) / 512                      the mean over the 512 channels,
    lowRank j  = (∑ n, pooled n · w1 j n) + b1 j           the first linear layer (64 → 32),
    score M    = (∑ j, lowRank j · mb j M) · s             the scaled scores against the 128 memory slots,
    attn M     = exp (score M − max score) / ∑ exp (…)      the softmax over the memory slots,
    readout j  = ∑ M, attn M · mb j M                       the attention read back (128 → 32),
    gate n     = logistic ((∑ j, readout j · w2 n j) + b2 n)  the second linear layer and the sigmoid (32 → 64).
  The three float literals (512, the score scale s, and −∞ as the maximum's start value) are kept as the
  bit patterns both programs print: the same word on both sides is never evaluated.
-/
import Idealize.ShloMosaic.PureOps.Ideal
import Idealize.ShloMosaic.Lib.ValueIdx

noncomputable section

namespace Cert.Gate

open Idealize.ShloMosaic

variable (w1 : Fin 32 → Fin 64 → EReal) (b1 : Fin 32 → EReal) (mb : Fin 32 → Fin 128 → EReal)
  (w2 : Fin 64 → Fin 32 → EReal) (b2 : Fin 64 → EReal)

/-- The mean of a row's slice over its 512 channels: the sum divided by the literal 512. -/
def pooled (xr : Fin 64 → Fin 512 → EReal) (n : Fin 64) : EReal :=
  Ideal.div (∑ c : Fin 512, xr n c) (Ideal.ofBits .f32 0x44000000#32)

/-- The first linear layer: `y · w1ᵀ + b1`. -/
def lowRank (y : Fin 64 → EReal) (j : Fin 32) : EReal := (∑ n : Fin 64, y n * w1 j n) + b1 j

/-- The scores against the memory bank, scaled by the literal `32^(-1/2)` as both programs round it. -/
def score (lr : Fin 32 → EReal) (M : Fin 128) : EReal :=
  (∑ j : Fin 32, lr j * mb j M) * Ideal.ofBits .f32 0x3E3504F3#32

/-- The largest score of the row: the fold of `max` over the 128 slots from −∞, joined once more with −∞
    (the softmax's guard against an all-−∞ row). -/
def rowMax (f : Fin 128 → EReal) : EReal :=
  max (Ideal.ofBits .f32 0xFF800000#32) ((Finset.univ : Finset (Fin 128)).fold max (Ideal.ofBits .f32 0xFF800000#32) f)

/-- The shifted exponentials of the softmax. -/
def expo (f : Fin 128 → EReal) (M : Fin 128) : EReal := Ideal.exp (f M - rowMax f)

/-- The softmax over the memory slots. -/
def attn (f : Fin 128 → EReal) (M : Fin 128) : EReal := Ideal.div (expo f M) (∑ M' : Fin 128, expo f M')

/-- The attention read back through the memory bank: `attn · mbᵀ`. -/
def readout (a : Fin 128 → EReal) (j : Fin 32) : EReal := ∑ M : Fin 128, a M * mb j M

/-- The second linear layer and the sigmoid. -/
def squash (y1 : Fin 32 → EReal) (n : Fin 64) : EReal := Ideal.logistic ((∑ j : Fin 32, y1 j * w2 n j) + b2 n)

/-- The gate of a row: the six steps composed. -/
def gate (xr : Fin 64 → Fin 512 → EReal) (n : Fin 64) : EReal :=
  squash w2 b2 (readout mb (attn (score mb (lowRank w1 b1 (pooled xr))))) n

end Cert.Gate

end
-- ==== Proof.LibRowOps.lean ====
/-
  Row-wise vector operations read at an index, at the ideal values: general lemmas, stated over arbitrary
  extents, for kernels that reduce along the last axis and broadcast the result back (a mean, a softmax).

  * the keepdims layout forms: a vector [a] viewed as a column [a, 1]; a column [a, 1] broadcast along the rows
    to [a, b]; a matrix [a, b] viewed as [a, b, 1]; and [a, b, 1] broadcast along the last axis to [a, b, c];
  * a sum and a maximum along the last axis of a matrix, and a sum along the last axis of a rank-3 array, as a
    `Fin`-indexed sum (fold) over that axis's coordinate;
  * the host's maximum-reduce along the last axis of a matrix, as the same fold;
  * a matrix product with the plain dimension numbers (rows × contraction by contraction × columns) into a
    zero accumulator, as the sum over the contraction coordinate.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowOps

open Idealize.ShloMosaic Idealize.ShloMosaic.ValueIdx

variable {α : Type}

/-! ## The keepdims layout forms -/

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix `[a, b]` cast to `[a, b, 1]` reads, at `(i, j, u)`, the operand at `(i, j)`. -/
theorem shapeCast_ab_ab1_apply {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- `[a, b, 1]` broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## Reductions along the last axis -/

/-- A reduced row index `i` of a matrix with column `k` put back is `(i, k)`. -/
theorem lift_last2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A reduced index `(i, j)` of a rank-3 array with the last coordinate `k` put back is `(i, j, k)`. -/
theorem lift_last3 {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

/-- The sum along the rows of a matrix, at row `i`: the sum over the columns of the entries of that row. -/
theorem rowSum_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last2 h i k))

/-- The sum along the last axis of a rank-3 array, at `(i, j)`. -/
theorem lastSum3_apply {a b c : ℕ} {φ : FTy} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last3 h i j k))

/-- The maximum along the rows of a matrix, at row `i`: the fold of `max` from the accumulator's value over the
    entries of that row. -/
theorem rowMax_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => Finset.fold max (Ideal.ofBits φ acc) f (Finset.univ : Finset (Fin b)))
      (funext fun k => congrArg src (lift_last2 h i k)))

/-- The host's maximum-reduce along the rows of a matrix, at row `i`: the same fold, from the initial value. -/
theorem hostRowMax_apply {a b : ℕ} {φ : FTy} {u : Shape} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (i : Fin a) :
    Host.reduce FloatOps.maximumf x init h' hu (ix1 i)
      = (Finset.univ : Finset (Fin b)).fold max (init (Shape.Idx.first hu)) (fun k => x (ix2 i k)) :=
  (Host.reduce_eq_fold_single FloatOps.maximumf x init h' h hu (ix1 i)).trans
    (congrArg (fun f => Finset.fold max (init (Shape.Idx.first hu)) f (Finset.univ : Finset (Fin b)))
      (funext fun k => congrArg x (lift_last2 h i k)))

end Cert.RowOps

end
-- ==== Proof.LibPlainDot.lean ====
/-
  A matrix product with the plain dimension numbers — rows × contraction by contraction × columns, no batch
  axis — into a zero accumulator, read at the ideal values at an entry `(i, j)`: the sum over the contraction
  coordinate `q` of `lhs (i, q) · rhs (q, j)`.  General in the three extents and in the dimension-number record,
  which is only asked to list the axes as the plain product does.
-/
import Idealize.ShloMosaic.Lib.ValueIdx
import Idealize.ShloMosaic.PureOps.Ideal.Laws

noncomputable section

namespace Cert.PlainDot

open Idealize.ShloMosaic Idealize.ShloMosaic.ValueIdx

/-- The entry `(i, j)` of `lhs · rhs` accumulated into zeros is `∑ q, lhs (i, q) · rhs (q, j)`. -/
theorem matmul_zero_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (i : Fin M) (j : Fin N) :
    matmul d prec l r (constant ⟨2, ![M, N]⟩ .f32 0x00000000#32) (ix2 i j) = ∑ q : Fin K, l (ix2 i q) * r (ix2 q j) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  -- the two operand indices at `(i, j)` and a contraction position, coordinate by coordinate
  have l0 : ∀ k, (d.lhsIdx (ix2 i j) k (0 : Fin 2)).val = i.val := fun k => by
    subst hd
    unfold DotDims.lhsIdx
    rw [dif_neg (show ¬ (0 : Fin 2) ∈ ([] : List (Fin 2)) from List.not_mem_nil),
      dif_pos (show (0 : Fin 2) ∈ [(0 : Fin 2)] from List.mem_singleton.mpr rfl)]
    rfl
  have r1 : ∀ k, (d.rhsIdx (ix2 i j) k (1 : Fin 2)).val = j.val := fun k => by
    subst hd
    unfold DotDims.rhsIdx
    rw [dif_neg (show ¬ (1 : Fin 2) ∈ ([] : List (Fin 2)) from List.not_mem_nil),
      dif_pos (show (1 : Fin 2) ∈ [(1 : Fin 2)] from List.mem_singleton.mpr rfl)]
    rfl
  simp only [matmul]
  rw [Ideal.matmul_constant_zero_apply, ← Equiv.sum_comp (contrEquiv1 d K hr hs).symm]
  refine Finset.sum_congr rfl fun q _ => ?_
  have hq := contrEquiv1_symm_val d K hr hs q
  have el : d.lhsIdx (ix2 i j) ((contrEquiv1 d K hr hs).symm q) = ix2 i q := funext fun a => Fin.ext (by
    match a with
    | ⟨0, _⟩ => exact l0 _
    | ⟨1, _⟩ => exact (d.lhsIdx_val_of_single hlc _ _).trans hq)
  have er : d.rhsIdx (ix2 i j) ((contrEquiv1 d K hr hs).symm q) = ix2 q j := funext fun a => Fin.ext (by
    match a with
    | ⟨0, _⟩ => exact (d.rhsIdx_val_of_single hrc _ _).trans hq
    | ⟨1, _⟩ => exact r1 _)
  rw [el, er]

end Cert.PlainDot

end
-- ==== Proof.BodyGate.lean ====
/-
  What the kernel body computes, read at an entry of the block it stores.

  The body loads a block of 64 rows of the flattened input (each row a 64 × 512 slice) and the five parameter
  arrays whole, and stores `x · gate` where, for row `r` of the block, `gate` is the channel-attention gate of
  that row's slice (module Gate): the mean over the channels, two small linear layers around a softmax attention
  over the memory bank, a sigmoid.  Every step is local to the row, so each intermediate vector of the body, read
  in row `r`, is the corresponding step of the gate applied to row `r` of the previous one; the lemmas below say
  so step by step (each takes the previous step's vector as a variable together with what its row `r` holds),
  and `gate_entry` chains them.
-/
import proofs.«102035_j14448269984372_1_alg».proof.Proof.Gen.KernelIdeal.Skeleton
import proofs.«102035_j14448269984372_1_alg».proof.Proof.Gate
import proofs.«102035_j14448269984372_1_alg».proof.Proof.LibRowOps
import proofs.«102035_j14448269984372_1_alg».proof.Proof.LibPlainDot

noncomputable section

namespace Cert.KernelIdeal.Body

open Cert.KernelIdeal Cert.KernelIdeal.Gen Idealize.ShloMosaic Idealize.ShloMosaic.ValueIdx
open Cert.RowOps Cert.PlainDot

/-- The mean over the channels: the lane sum of the block divided by the splat of 512, at `(r, n)`, is the
    pooled value of row `r`'s slice at `n`. -/
theorem mean_entry (x0 : FVec Ideal S64x64x512 .f32) (hc : S64x64x512.ShapeCasts S64x64x512)
    (h : S64x64x512.Reduces [2] S64x64) (hφ : FKind.Formats .f32) (hacc : (0x00000000#32 : BitVec 32) = FKind.add.neutral .f32 hφ)
    (r n : Fin 64) :
    divf (multiReduction .add [2] S64x64 (shapeCast S64x64x512 x0 hc) 0x00000000#32 h hφ hacc)
        (broadcast S64x64 (Scalar.ofBits .f32 0x44000000#32)) (ix2 r n)
      = Gate.pooled (fun n c => x0 (ix3 r n c)) n := by
  unfold Gate.pooled
  rw [shapeCast_self, divf_apply]
  exact congrArg (fun s => Ideal.div s (Ideal.ofBits .f32 0x44000000#32)) (lastSum3_apply x0 _ h hφ hacc r n)

/-- The first linear layer: `y · w1ᵀ + b1` at `(r, j)`, from row `r` of `y`. -/
theorem lowRank_entry (y : FVec Ideal S64x64 .f32) (x1 : FVec Ideal S32x64 .f32) (x2 : FVec Ideal S32 .f32)
    (ht : S32x64.Transposes [1, 0] S64x32) (hs : S32.ShapeCasts S1x32) (hb : S1x32.Broadcasts S64x32)
    (r : Fin 64) (Y : Fin 64 → EReal) (hy : ∀ n, y (ix2 r n) = Y n) (j : Fin 32) :
    addf (matmul dot_S64x64_S64x32_S64x32_1_0_0_1_n_n none y (transpose S64x32 [1, 0] x1 ht) (constant S64x32 .f32 0x00000000#32))
        (broadcastTo S64x32 (shapeCast S1x32 x2 hs) hb) (ix2 r j)
      = Gate.lowRank (fun j n => x1 (ix2 j n)) (fun j => x2 (ix1 j)) Y j := by
  unfold Gate.lowRank
  rw [addf_apply]
  refine congrArg₂ (· + ·) ?_ ?_
  · refine (matmul_zero_apply dot_S64x64_S64x32_S64x32_1_0_0_1_n_n rfl rfl rfl rfl rfl rfl none y _ r j).trans
      (Finset.sum_congr rfl fun n _ => ?_)
    rw [hy n, transpose_ix2_apply]
  · exact (broadcastTo_1b_ab_apply _ hb r j).trans (shapeCast_a_1a_apply x2 hs 0 j)

/-- The scaled scores against the memory bank at `(r, M)`, from row `r` of the low-rank vector. -/
theorem score_entry (lr : FVec Ideal S64x32 .f32) (x5 : FVec Ideal S32x128 .f32)
    (r : Fin 64) (L : Fin 32 → EReal) (hl : ∀ j, lr (ix2 r j) = L j) (M : Fin 128) :
    mulf (matmul dot_S64x32_S32x128_S64x128_1_0_0_1_n_n none lr x5 (constant S64x128 .f32 0x00000000#32))
        (broadcast S64x128 (Scalar.ofBits .f32 0x3E3504F3#32)) (ix2 r M)
      = Gate.score (fun j M => x5 (ix2 j M)) L M := by
  unfold Gate.score
  rw [mulf_apply]
  refine congrArg (· * Ideal.ofBits .f32 0x3E3504F3#32) ?_
  refine (matmul_zero_apply dot_S64x32_S32x128_S64x128_1_0_0_1_n_n rfl rfl rfl rfl rfl rfl none lr x5 r M).trans
    (Finset.sum_congr rfl fun j _ => ?_)
  rw [hl j]

/-- The row maximum broadcast back along the row, at `(r, M)`: the maximum of row `r` of the scores. -/
theorem rowMax_entry (f : FVec Ideal S64x128 .f32) (h : S64x128.Reduces [1] S64) (hφ : FKind.Formats .f32)
    (hacc : (0xFF800000#32 : BitVec 32) = FKind.maximumf.neutral .f32 hφ) (hs : S64.ShapeCasts S64x1) (hb : S64x1.Broadcasts S64x128)
    (r : Fin 64) (Fn : Fin 128 → EReal) (hf : ∀ M, f (ix2 r M) = Fn M) (M : Fin 128) :
    broadcastTo S64x128 (shapeCast S64x1 (maximumf (broadcast S64 (Scalar.ofBits .f32 0xFF800000#32))
        (multiReduction .maximumf [1] S64 f 0xFF800000#32 h hφ hacc)) hs) hb (ix2 r M)
      = Gate.rowMax Fn := by
  unfold Gate.rowMax
  refine (broadcastTo_a1_ab_apply _ hb r M).trans ((shapeCast_a_a1_apply _ hs r 0).trans ?_)
  rw [maximumf_apply]
  refine congrArg (max (Ideal.ofBits .f32 0xFF800000#32)) ((rowMax_apply f _ h hφ hacc r).trans ?_)
  exact congrArg (fun g => Finset.fold max (Ideal.ofBits .f32 0xFF800000#32) g (Finset.univ : Finset (Fin 128))) (funext hf)

/-- The shifted exponentials at `(r, M)`. -/
theorem expo_entry (f mx : FVec Ideal S64x128 .f32) (r : Fin 64) (Fn : Fin 128 → EReal) (hf : ∀ M, f (ix2 r M) = Fn M)
    (hm : ∀ M, mx (ix2 r M) = Gate.rowMax Fn) (M : Fin 128) :
    exp (subf f mx) (ix2 r M) = Gate.expo Fn M := by
  unfold Gate.expo
  show Ideal.exp (f (ix2 r M) - mx (ix2 r M)) = _
  rw [hf M, hm M]

/-- The softmax at `(r, M)`: the exponential divided by the row's sum of exponentials, broadcast back. -/
theorem attn_entry (e : FVec Ideal S64x128 .f32) (h : S64x128.Reduces [1] S64) (hφ : FKind.Formats .f32)
    (hacc : (0x00000000#32 : BitVec 32) = FKind.add.neutral .f32 hφ) (hs : S64.ShapeCasts S64x1) (hb : S64x1.Broadcasts S64x128)
    (r : Fin 64) (Fn : Fin 128 → EReal) (he : ∀ M, e (ix2 r M) = Gate.expo Fn M) (M : Fin 128) :
    divf e (broadcastTo S64x128 (shapeCast S64x1 (multiReduction .add [1] S64 e 0x00000000#32 h hφ hacc) hs) hb) (ix2 r M)
      = Gate.attn Fn M := by
  unfold Gate.attn
  rw [divf_apply, he M]
  refine congrArg (Ideal.div (Gate.expo Fn M)) ?_
  refine (broadcastTo_a1_ab_apply _ hb r M).trans ((shapeCast_a_a1_apply _ hs r 0).trans ((rowSum_apply e _ h hφ hacc r).trans ?_))
  exact Finset.sum_congr rfl fun M' _ => he M'

/-- The attention read back through the memory bank at `(r, j)`. -/
theorem readout_entry (a : FVec Ideal S64x128 .f32) (x5 : FVec Ideal S32x128 .f32) (ht : S32x128.Transposes [1, 0] S128x32)
    (r : Fin 64) (A : Fin 128 → EReal) (ha : ∀ M, a (ix2 r M) = A M) (j : Fin 32) :
    matmul dot_S64x128_S128x32_S64x32_1_0_0_1_n_n none a (transpose S128x32 [1, 0] x5 ht) (constant S64x32 .f32 0x00000000#32) (ix2 r j)
      = Gate.readout (fun j M => x5 (ix2 j M)) A j := by
  unfold Gate.readout
  refine (matmul_zero_apply dot_S64x128_S128x32_S64x32_1_0_0_1_n_n rfl rfl rfl rfl rfl rfl none a _ r j).trans
    (Finset.sum_congr rfl fun M _ => ?_)
  rw [ha M, transpose_ix2_apply]

/-- The second linear layer and the sigmoid, viewed with a trailing unit axis, at `(r, n, 0)`. -/
theorem squash_entry (y1 : FVec Ideal S64x32 .f32) (x3 : FVec Ideal S64x32 .f32) (x4 : FVec Ideal S64 .f32)
    (ht : S64x32.Transposes [1, 0] S32x64) (hs : S64.ShapeCasts S1x64) (hb : S1x64.Broadcasts S64x64) (hc : S64x64.ShapeCasts S64x64x1)
    (r : Fin 64) (Y1 : Fin 32 → EReal) (hy : ∀ j, y1 (ix2 r j) = Y1 j) (n : Fin 64) (u : Fin 1) :
    shapeCast S64x64x1 (logistic (addf
        (matmul dot_S64x32_S32x64_S64x64_1_0_0_1_n_n none y1 (transpose S32x64 [1, 0] x3 ht) (constant S64x64 .f32 0x00000000#32))
        (broadcastTo S64x64 (shapeCast S1x64 x4 hs) hb))) hc (ix3 r n u)
      = Gate.squash (fun n j => x3 (ix2 n j)) (fun n => x4 (ix1 n)) Y1 n := by
  unfold Gate.squash
  refine (shapeCast_ab_ab1_apply _ hc r n u).trans ?_
  show FloatOps.logistic ((addf _ _ : FVec Ideal S64x64 .f32) (ix2 r n)) = _
  rw [Ideal.logistic_def, addf_apply]
  refine congrArg Ideal.logistic (congrArg₂ (· + ·) ?_ ?_)
  · refine (matmul_zero_apply dot_S64x32_S32x64_S64x64_1_0_0_1_n_n rfl rfl rfl rfl rfl rfl none y1 _ r n).trans
      (Finset.sum_congr rfl fun j _ => ?_)
    rw [hy j, transpose_ix2_apply]
  · exact (broadcastTo_1b_ab_apply _ hb r n).trans (shapeCast_a_1a_apply x4 hs 0 n)

/-- THE GATE VECTOR of the body at `(r, n, 0)`: the gate of row `r`'s slice of the input block, with the five
    parameter blocks read entry by entry. -/
theorem gate_entry (x0 : Vec Ideal S64x64x512 .f32) (x1 : Vec Ideal S32x64 .f32) (x2 : Vec Ideal S32 .f32)
    (x5 : Vec Ideal S32x128 .f32) (x3 : Vec Ideal S64x32 .f32) (x4 : Vec Ideal S64 .f32) (r n : Fin 64) (u : Fin 1) :
    k0_pay3 x0 x1 x2 x5 x3 x4 (ix3 r n u)
      = Gate.gate (fun j n => x1 (ix2 j n)) (fun j => x2 (ix1 j)) (fun j M => x5 (ix2 j M)) (fun n j => x3 (ix2 n j))
          (fun n => x4 (ix1 n)) (fun n c => x0 (ix3 r n c)) n := by
  unfold k0_pay3 k0_pay2 Gate.gate
  exact squash_entry _ x3 x4 _ _ _ _ r _ (fun j =>
    readout_entry _ x5 _ r _ (fun M =>
      attn_entry _ _ _ _ _ _ r _ (fun M' =>
        expo_entry _ _ r _
          (fun M'' => score_entry _ x5 r _ (fun j' => lowRank_entry _ x1 x2 _ _ _ r _ (fun n' => mean_entry x0 _ _ _ _ r n') j') M'')
          (fun M'' => rowMax_entry _ _ _ _ _ _ r _
            (fun M3 => score_entry _ x5 r _ (fun j' => lowRank_entry _ x1 x2 _ _ _ r _ (fun n' => mean_entry x0 _ _ _ _ r n') j') M3) M'')
          M') M) j) n u

/-- THE STORED VALUE at `(r, n, c)`: the input block's entry times the gate vector's entry of its row and position. -/
theorem stored_entry (v1 : FVec Ideal S64x64x512 .f32) (v37 : FVec Ideal S64x64x1 .f32) (r n : Fin 64) (c : Fin 512) :
    k0_pay1 v1 v37 (ix3 r n c) = v1 (ix3 r n c) * v37 (ix3 r n (0 : Fin 1)) := by
  unfold k0_pay1
  rw [mulf_apply]
  exact congrArg (v1 (ix3 r n c) * ·) (broadcastTo_ab1_abc_apply v37 _ r n c)

end Cert.KernelIdeal.Body

end
-- ==== Proof.Scaled.lean ====
/-
  The result of the whole computation as one function of the six argument arrays.

  Flatten the input [2, 16, 16, 4, 64, 512] to 2048 rows of 64 × 512 (row-major: the row of the entries with
  leading coordinates (i0, i1, i2, i3) is ((i0·16 + i1)·16 + i2)·4 + i3).  `scaled` multiplies every entry
  (b, n, c) of the flattened array by the gate of row b at n (module Gate); `result` is `scaled` of the flattened
  input, viewed back with six axes.  Read at an index, `result` is the input's entry there times the gate of its
  row at its fifth coordinate (`result_apply`).  The three reshapes met on the way — the input to rows, rows back
  to six axes, and the 2048 × 64 gates to [2, 16, 16, 4, 64, 1] — are read at an index by the row-major position.
-/
import Idealize.ShloMosaic.Lib.ValueLayout
import proofs.«102035_j14448269984372_1_alg».proof.Proof.Gate

noncomputable section

namespace Cert.Scaled

open Idealize.ShloMosaic Idealize.ShloMosaic.ValueIdx

abbrev S6 : Shape := ⟨6, ![2, 16, 16, 4, 64, 512]⟩
abbrev S3 : Shape := ⟨3, ![2048, 64, 512]⟩
abbrev S6g : Shape := ⟨6, ![2, 16, 16, 4, 64, 1]⟩
abbrev S2g : Shape := ⟨2, ![2048, 64]⟩

/-- The row of the flattened array that holds the entries with leading coordinates `(i0, i1, i2, i3)`. -/
def rowOf (i0 : Fin 2) (i1 : Fin 16) (i2 : Fin 16) (i3 : Fin 4) : Fin 2048 :=
  ⟨((i0.val * 16 + i1.val) * 16 + i2.val) * 4 + i3.val, by omega⟩

variable {α : Type}

/-- The six-axis array viewed as rows, at `(rowOf i0 i1 i2 i3, n, c)`, is the array at `(i0, i1, i2, i3, n, c)`. -/
theorem flatten_apply (X : S6.Idx → α) (h : S6.ShapeCasts S3) (i0 : Fin 2) (i1 : Fin 16) (i2 : Fin 16) (i3 : Fin 4)
    (n : Fin 64) (c : Fin 512) :
    shapeCast S3 X h (ix3 (rowOf i0 i1 i2 i3) n c) = X (ix6 i0 i1 i2 i3 n c) :=
  shapeCast_apply X h _ _ (by
    rw [Shape.rowMajor_val_six, Shape.rowMajor_val_three]
    show ((((i0.val * 16 + i1.val) * 16 + i2.val) * 4 + i3.val) * 64 + n.val) * 512 + c.val
      = ((((i0.val * 16 + i1.val) * 16 + i2.val) * 4 + i3.val) * 64 + n.val) * 512 + c.val
    rfl)

/-- Rows viewed back with six axes, at `(i0, i1, i2, i3, n, c)`, are the rows at `(rowOf i0 i1 i2 i3, n, c)`. -/
theorem unflatten_apply (Y : S3.Idx → α) (h : S3.ShapeCasts S6) (i0 : Fin 2) (i1 : Fin 16) (i2 : Fin 16) (i3 : Fin 4)
    (n : Fin 64) (c : Fin 512) :
    shapeCast S6 Y h (ix6 i0 i1 i2 i3 n c) = Y (ix3 (rowOf i0 i1 i2 i3) n c) :=
  shapeCast_apply Y h _ _ (by
    rw [Shape.rowMajor_val_six, Shape.rowMajor_val_three]
    show ((((i0.val * 16 + i1.val) * 16 + i2.val) * 4 + i3.val) * 64 + n.val) * 512 + c.val
      = ((((i0.val * 16 + i1.val) * 16 + i2.val) * 4 + i3.val) * 64 + n.val) * 512 + c.val
    rfl)

/-- The 2048 × 64 gates viewed as [2, 16, 16, 4, 64, 1], at `(i0, i1, i2, i3, n, 0)`, are the gates at
    `(rowOf i0 i1 i2 i3, n)`. -/
theorem gates_apply (Z : S2g.Idx → α) (h : S2g.ShapeCasts S6g) (i0 : Fin 2) (i1 : Fin 16) (i2 : Fin 16) (i3 : Fin 4)
    (n : Fin 64) (u : Fin 1) :
    shapeCast S6g Z h (ix6 i0 i1 i2 i3 n u) = Z (ix2 (rowOf i0 i1 i2 i3) n) :=
  shapeCast_apply Z h _ _ (by
    have hu : u.val = 0 := by omega
    rw [Shape.rowMajor_val_six, Shape.rowMajor_val_two]
    show (((i0.val * 16 + i1.val) * 16 + i2.val) * 4 + i3.val) * 64 + n.val
      = ((((i0.val * 16 + i1.val) * 16 + i2.val) * 4 + i3.val) * 64 + n.val) * 1 + u.val
    rw [hu, Nat.mul_one, Nat.add_zero])

/-- Every entry `(b, n, c)` of the rows times the gate of row `b` at `n`. -/
def scaled (Xf : S3.Idx → EReal) (a1 : (⟨2, ![32, 64]⟩ : Shape).Idx → EReal) (a2 : (⟨1, ![32]⟩ : Shape).Idx → EReal)
    (a3 : (⟨2, ![64, 32]⟩ : Shape).Idx → EReal) (a4 : (⟨1, ![64]⟩ : Shape).Idx → EReal)
    (a5 : (⟨2, ![32, 128]⟩ : Shape).Idx → EReal) : S3.Idx → EReal := fun i =>
  Xf i * Gate.gate (fun j n => a1 (ix2 j n)) (fun j => a2 (ix1 j)) (fun j M => a5 (ix2 j M)) (fun n j => a3 (ix2 n j))
    (fun n => a4 (ix1 n)) (fun n c => Xf (ix3 (⟨(i 0).val, (i 0).isLt⟩ : Fin 2048) n c)) (⟨(i 1).val, (i 1).isLt⟩ : Fin 64)

theorem scaled_apply (Xf : S3.Idx → EReal) (a1 : (⟨2, ![32, 64]⟩ : Shape).Idx → EReal) (a2 : (⟨1, ![32]⟩ : Shape).Idx → EReal)
    (a3 : (⟨2, ![64, 32]⟩ : Shape).Idx → EReal) (a4 : (⟨1, ![64]⟩ : Shape).Idx → EReal)
    (a5 : (⟨2, ![32, 128]⟩ : Shape).Idx → EReal) (b : Fin 2048) (n : Fin 64) (c : Fin 512) :
    scaled Xf a1 a2 a3 a4 a5 (ix3 b n c)
      = Xf (ix3 b n c) * Gate.gate (fun j n => a1 (ix2 j n)) (fun j => a2 (ix1 j)) (fun j M => a5 (ix2 j M))
          (fun n j => a3 (ix2 n j)) (fun n => a4 (ix1 n)) (fun n c => Xf (ix3 b n c)) n := rfl

/-- The whole result: the input flattened to rows, scaled row by row, viewed back with six axes. -/
def result (X : S6.Idx → EReal) (a1 : (⟨2, ![32, 64]⟩ : Shape).Idx → EReal) (a2 : (⟨1, ![32]⟩ : Shape).Idx → EReal)
    (a3 : (⟨2, ![64, 32]⟩ : Shape).Idx → EReal) (a4 : (⟨1, ![64]⟩ : Shape).Idx → EReal)
    (a5 : (⟨2, ![32, 128]⟩ : Shape).Idx → EReal) (h1 : S6.ShapeCasts S3) (h2 : S3.ShapeCasts S6) : S6.Idx → EReal :=
  shapeCast S6 (scaled (shapeCast S3 X h1) a1 a2 a3 a4 a5) h2

/-- The result at an index: the input's entry there times the gate of its row at its fifth coordinate. -/
theorem result_apply (X : S6.Idx → EReal) (a1 : (⟨2, ![32, 64]⟩ : Shape).Idx → EReal) (a2 : (⟨1, ![32]⟩ : Shape).Idx → EReal)
    (a3 : (⟨2, ![64, 32]⟩ : Shape).Idx → EReal) (a4 : (⟨1, ![64]⟩ : Shape).Idx → EReal)
    (a5 : (⟨2, ![32, 128]⟩ : Shape).Idx → EReal) (h1 : S6.ShapeCasts S3) (h2 : S3.ShapeCasts S6)
    (i0 : Fin 2) (i1 : Fin 16) (i2 : Fin 16) (i3 : Fin 4) (n : Fin 64) (c : Fin 512) :
    result X a1 a2 a3 a4 a5 h1 h2 (ix6 i0 i1 i2 i3 n c)
      = X (ix6 i0 i1 i2 i3 n c) * Gate.gate (fun j n => a1 (ix2 j n)) (fun j => a2 (ix1 j)) (fun j M => a5 (ix2 j M))
          (fun n j => a3 (ix2 n j)) (fun n => a4 (ix1 n)) (fun n c => shapeCast S3 X h1 (ix3 (rowOf i0 i1 i2 i3) n c)) n := by
  unfold result
  rw [unflatten_apply, scaled_apply, flatten_apply]

end Cert.Scaled

end
-- ==== Proof.KernelValue.lean ====
/-
  What the kernel program leaves in its result array.

  The program flattens the input to 2048 rows (a host reshape), runs the kernel over a grid of 32 points — point
  `t` loads rows `64 t … 64 t + 63` of the flattened input and the five parameter arrays whole, and writes back the
  same rows of the output — and views the output with six axes again (a second host reshape).  By module BodyGate
  what point `t` writes at row `r` of its block is the input's row `64 t + r` times the gate of that row, that is,
  block `t` of `Scaled.scaled` of the flattened input; the 32 blocks tile the output array, so after the run it is
  `Scaled.scaled` of the flattened input, and the result is `Scaled.result` of the arguments.
-/
import proofs.«102035_j14448269984372_1_alg».proof.Proof.Gen.KernelIdeal.Frame
import proofs.«102035_j14448269984372_1_alg».proof.Proof.BodyGate
import proofs.«102035_j14448269984372_1_alg».proof.Proof.Scaled
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 32 grid points: the input's and the output's block index is the
    point on the row axis and zero elsewhere; every parameter's block index is zero. -/
theorem idx_facts : ∀ t : Fin cfg0.N,
    win0_0.index t (0 : Fin 3) = t.val ∧ win0_0.index t (1 : Fin 3) = 0 ∧ win0_0.index t (2 : Fin 3) = 0
    ∧ win0_6.index t (0 : Fin 3) = t.val ∧ win0_6.index t (1 : Fin 3) = 0 ∧ win0_6.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0 :=
  (by decide +kernel : ∀ t : Fin grid0.N, _)

/-- Row `r` of the block at point `t` is row `64 t + r` of the flattened array. -/
def rowAt (t : Fin cfg0.N) (r : Fin 64) : Fin 2048 :=
  ⟨64 * t.val + r.val, by have h := t.isLt; have hN : cfg0.N = 32 := N_0; omega⟩

/-! ## The windows' blocks, entry by entry -/

theorem blk0_apply (c : Dev nD) (t : Fin cfg0.N) (r n : Fin 64) (k : Fin 512) :
    (iblk m c 0 t : Vec Ideal S64x64x512 .f32) (ix3 r n k) = (V m c main_v0 : S2048x64x512.Idx → EReal) (ix3 (rowAt t r) n k) := by
  obtain ⟨e0, e1, e2, -⟩ := idx_facts t
  show V m c main_v0 (((cfg0.win 0).blk t).view.emb (ix3 r n k)) = V m c main_v0 (ix3 (rowAt t r) n k)
  have h : ((cfg0.win 0).blk t).view.emb (ix3 r n k) = ix3 (rowAt t r) n k := by
    funext a; apply Fin.ext
    match a with
    | ⟨0, _⟩ => show win0_0.index t (0 : Fin 3) * 64 + 1 * r.val = 64 * t.val + r.val; omega
    | ⟨1, _⟩ => show win0_0.index t (1 : Fin 3) * 64 + 1 * n.val = n.val; omega
    | ⟨2, _⟩ => show win0_0.index t (2 : Fin 3) * 512 + 1 * k.val = k.val; omega
  rw [h]

theorem blk1_apply (c : Dev nD) (t : Fin cfg0.N) (j : Fin 32) (n : Fin 64) :
    (iblk m c 1 t : Vec Ideal S32x64 .f32) (ix2 j n) = (V m c main_arg1 : S32x64.Idx → EReal) (ix2 j n) := by
  obtain ⟨-, -, -, -, -, -, e0, e1, -⟩ := idx_facts t
  show V m c main_arg1 (((cfg0.win 1).blk t).view.emb (ix2 j n)) = V m c main_arg1 (ix2 j n)
  have h : ((cfg0.win 1).blk t).view.emb (ix2 j n) = ix2 j n := by
    funext a; apply Fin.ext
    match a with
    | ⟨0, _⟩ => show win0_1.index t (0 : Fin 2) * 32 + 1 * j.val = j.val; omega
    | ⟨1, _⟩ => show win0_1.index t (1 : Fin 2) * 64 + 1 * n.val = n.val; omega
  rw [h]

theorem blk2_apply (c : Dev nD) (t : Fin cfg0.N) (j : Fin 32) :
    (iblk m c 2 t : Vec Ideal S32 .f32) (ix1 j) = (V m c main_arg2 : S32.Idx → EReal) (ix1 j) := by
  obtain ⟨-, -, -, -, -, -, -, -, e0, -⟩ := idx_facts t
  show V m c main_arg2 (((cfg0.win 2).blk t).view.emb (ix1 j)) = V m c main_arg2 (ix1 j)
  have h : ((cfg0.win 2).blk t).view.emb (ix1 j) = ix1 j := by
    funext a; apply Fin.ext
    match a with
    | ⟨0, _⟩ => show win0_2.index t (0 : Fin 1) * 32 + 1 * j.val = j.val; omega
  rw [h]

theorem blk3_apply (c : Dev nD) (t : Fin cfg0.N) (n : Fin 64) (j : Fin 32) :
    (iblk m c 3 t : Vec Ideal S64x32 .f32) (ix2 n j) = (V m c main_arg3 : S64x32.Idx → EReal) (ix2 n j) := by
  obtain ⟨-, -, -, -, -, -, -, -, -, e0, e1, -⟩ := idx_facts t
  show V m c main_arg3 (((cfg0.win 3).blk t).view.emb (ix2 n j)) = V m c main_arg3 (ix2 n j)
  have h : ((cfg0.win 3).blk t).view.emb (ix2 n j) = ix2 n j := by
    funext a; apply Fin.ext
    match a with
    | ⟨0, _⟩ => show win0_3.index t (0 : Fin 2) * 64 + 1 * n.val = n.val; omega
    | ⟨1, _⟩ => show win0_3.index t (1 : Fin 2) * 32 + 1 * j.val = j.val; omega
  rw [h]

theorem blk4_apply (c : Dev nD) (t : Fin cfg0.N) (n : Fin 64) :
    (iblk m c 4 t : Vec Ideal S64 .f32) (ix1 n) = (V m c main_arg4 : S64.Idx → EReal) (ix1 n) := by
  obtain ⟨-, -, -, -, -, -, -, -, -, -, -, e0, -⟩ := idx_facts t
  show V m c main_arg4 (((cfg0.win 4).blk t).view.emb (ix1 n)) = V m c main_arg4 (ix1 n)
  have h : ((cfg0.win 4).blk t).view.emb (ix1 n) = ix1 n := by
    funext a; apply Fin.ext
    match a with
    | ⟨0, _⟩ => show win0_4.index t (0 : Fin 1) * 64 + 1 * n.val = n.val; omega
  rw [h]

theorem blk5_apply (c : Dev nD) (t : Fin cfg0.N) (j : Fin 32) (M : Fin 128) :
    (iblk m c 5 t : Vec Ideal S32x128 .f32) (ix2 j M) = (V m c main_arg5 : S32x128.Idx → EReal) (ix2 j M) := by
  obtain ⟨-, -, -, -, -, -, -, -, -, -, -, -, e0, e1⟩ := idx_facts t
  show V m c main_arg5 (((cfg0.win 5).blk t).view.emb (ix2 j M)) = V m c main_arg5 (ix2 j M)
  have h : ((cfg0.win 5).blk t).view.emb (ix2 j M) = ix2 j M := by
    funext a; apply Fin.ext
    match a with
    | ⟨0, _⟩ => show win0_5.index t (0 : Fin 2) * 32 + 1 * j.val = j.val; omega
    | ⟨1, _⟩ => show win0_5.index t (1 : Fin 2) * 128 + 1 * M.val = M.val; omega
  rw [h]

/-! ## What each point writes back, and the output array after the run -/

/-- The output array after the run: the flattened input scaled row by row by its gates. -/
abbrev G (c : Dev nD) : S2048x64x512.Idx → EReal :=
  Scaled.scaled (V m c main_v0) (V m c main_arg1) (V m c main_arg2) (V m c main_arg3) (V m c main_arg4) (V m c main_arg5)

/-- WHAT POINT `t` WRITES BACK is block `t` of `G`. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after0_6]
  unfold out0_6
  rw [View.canon_unit_zero hz3]
  simp only [View.ld_unit_zero (S := S64x64x512) hz3, View.ld_unit_zero (S := S32x64) hz2, View.ld_unit_zero (S := S32) hz1,
    View.ld_unit_zero (S := S32x128) hz2, View.ld_unit_zero (S := S64x32) hz2, View.ld_unit_zero (S := S64) hz1]
  funext j
  obtain ⟨r, n, k, rfl⟩ : ∃ (r : Fin 64) (n : Fin 64) (k : Fin 512), j = ix3 r n k := ⟨j 0, j 1, j 2, eq_ix3 j⟩
  obtain ⟨-, -, -, e0, e1, e2, -⟩ := idx_facts t
  show k0_pay1 (k0_pay2 (iblk m c 0 t)) (k0_pay3 (iblk m c 0 t) (iblk m c 1 t) (iblk m c 2 t) (iblk m c 5 t) (iblk m c 3 t) (iblk m c 4 t))
      (ix3 r n k) = G m c (((cfg0.win 6).blk t).view.emb (ix3 r n k))
  have h : ((cfg0.win 6).blk t).view.emb (ix3 r n k) = ix3 (rowAt t r) n k := by
    funext a; apply Fin.ext
    match a with
    | ⟨0, _⟩ => show win0_6.index t (0 : Fin 3) * 64 + 1 * r.val = 64 * t.val + r.val; omega
    | ⟨1, _⟩ => show win0_6.index t (1 : Fin 3) * 64 + 1 * n.val = n.val; omega
    | ⟨2, _⟩ => show win0_6.index t (2 : Fin 3) * 512 + 1 * k.val = k.val; omega
  rw [h, Body.stored_entry, Body.gate_entry]
  unfold k0_pay2
  rw [shapeCast_self]
  simp only [blk0_apply, blk1_apply, blk2_apply, blk3_apply, blk4_apply, blk5_apply]
  rfl

/-- An index of the output array is in point `t`'s block iff each coordinate is in the block's range on its axis. -/
theorem mem_blk (t : Fin cfg0.N) (i : S2048x64x512.Idx) :
    i ∈ ((cfg0.win 6).blk t).view.set ↔ ∀ a : Fin 3, win0_6.index t a * S64x64x512.size a ≤ (i a).val
      ∧ (i a).val < win0_6.index t a * S64x64x512.size a + S64x64x512.size a := by
  show i ∈ ((View.whole main_v1).slice (win0_6.rect t)).set ↔ _
  rw [View.set_slice_whole, Rect.mem_set_unit]
  exact Iff.rfl

/-- Every index of the output array is in the block of the point its row falls in: row `b` in point `b / 64`. -/
theorem cover (i : S2048x64x512.Idx) : ∃ t : Fin cfg0.N, (cfg0.win 6).flush t = true ∧ i ∈ ((cfg0.win 6).blk t).view.set := by
  have hi0 : (i 0).val < 2048 := (i 0).isLt
  have hi1 : (i 1).val < 64 := (i 1).isLt
  have hi2 : (i 2).val < 512 := (i 2).isLt
  have hN : cfg0.N = 32 := N_0
  obtain ⟨t, ht⟩ : ∃ t : Fin cfg0.N, t.val = (i 0).val / 64 := ⟨⟨(i 0).val / 64, by omega⟩, rfl⟩
  obtain ⟨-, -, -, e0, e1, e2, -⟩ := idx_facts t
  refine ⟨t, flush0_6 t, ?_⟩
  rw [mem_blk]
  intro a
  match a with
  | ⟨0, _⟩ =>
    show win0_6.index t (0 : Fin 3) * 64 ≤ (i 0).val ∧ (i 0).val < win0_6.index t (0 : Fin 3) * 64 + 64
    omega
  | ⟨1, _⟩ =>
    show win0_6.index t (1 : Fin 3) * 64 ≤ (i 1).val ∧ (i 1).val < win0_6.index t (1 : Fin 3) * 64 + 64
    omega
  | ⟨2, _⟩ =>
    show win0_6.index t (2 : Fin 3) * 512 ≤ (i 2).val ∧ (i 2).val < win0_6.index t (2 : Fin 3) * 512 + 512
    omega

/-- THE OUTPUT ARRAY after the run is `G`. -/
theorem final (c : Dev nD) : (dats m 0 c).arrAt 6 cfg0.N = G m c :=
  (dats m 0 c).arrAt_eq_of_cover 6 (G m c) (fun t _ => flushed_eq m c t) cover

/-! ## The host reshapes around the region, and the run -/

/-- The kernel's first operand as the region finds it: the input flattened to rows. -/
theorem V_main_v0 (c : Dev nD) :
    (V m c main_v0 : S2048x64x512.Idx → EReal)
      = shapeCast S2048x64x512 (m ((c : Thread nD τ).loc main_arg0)) Facts₀.shapeCasts_S2x16x16x4x64x512_S2048x64x512 := by
  show StableHlo.after hostOps0 (fun b => m (c, b)) (Proc.devRef .tc main_v0) = _
  after_results
  rfl

/-- The result array after the run: the whole result of the arguments. -/
theorem result_eq (c : Dev nD) :
    Pipeline.afterTail₀ cfgs (dats m) 0 (V0 m) [hostOps1] c main_v2
      = Scaled.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          Facts₀.shapeCasts_S2x16x16x4x64x512_S2048x64x512 Facts₀.shapeCasts_S2048x64x512_S2x16x16x4x64x512 := by
  unfold Pipeline.afterTail₀
  show StableHlo.after hostOps1 _ (Proc.devRef .tc main_v2) = _
  after_results
  unfold Scaled.result
  refine congrArg (fun y => shapeCast S2x16x16x4x64x512 y Facts₀.shapeCasts_S2048x64x512_S2x16x16x4x64x512) ?_
  refine ((Pipeline.withArrays_arr spec0 launch0.win.arr_inj c _ _ 6).trans (final m c)).trans ?_
  unfold G
  rw [V_main_v0, V_main_arg1, V_main_arg2, V_main_arg3, V_main_arg4, V_main_arg5]

/-- THE RUN, READ: every weakly fair execution terminates with the result array at the whole result of the
    arguments and the arguments unchanged. -/
theorem run : θ_run defs (onTc (τ := τ) (main (F := Ideal))) ⟨m, fun _ => 0, ρ⟩ fun r => ∀ c : Dev nD,
      r.2.mem ((c.tc : Thread nD τ).loc main_v2)
        = Scaled.result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            Facts₀.shapeCasts_S2x16x16x4x64x512_S2048x64x512 Facts₀.shapeCasts_S2048x64x512_S2x16x16x4x64x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.KValue

end
-- ==== Proof.RefGate.lean ====
/-
  What the reference computes, read at an entry.

  The reference flattens the input to 2048 rows of 64 × 512, takes each row's mean over the channels, runs the two
  small linear layers around the softmax attention over the memory bank, applies the sigmoid written out as
  `1 / (1 + exp (−z))`, views the 2048 × 64 gates as [2, 16, 16, 4, 64, 1] and multiplies the input by them along
  the last axis.  Every step is local to a row, so each stage of the reference, read in row `b`, is the
  corresponding step of the gate (module Gate) applied to row `b` of the previous stage: the lemmas below say so
  stage by stage over the generated read-at-an-index lemmas, and `gate_entry` chains them.  The last lemma reads
  the result at an index of the six-axis array: the row is the row-major position of the first four coordinates.
-/
import proofs.«102035_j14448269984372_1_alg».proof.Proof.Gen.ReferenceIdeal.Read
import proofs.«102035_j14448269984372_1_alg».proof.Proof.Gate
import proofs.«102035_j14448269984372_1_alg».proof.Proof.LibRowOps

noncomputable section

namespace Cert.ReferenceIdeal.RefValue

open Cert.ReferenceIdeal Cert.ReferenceIdeal.Gen Cert.ReferenceIdeal.Read Idealize.ShloMosaic Idealize.ShloMosaic.ValueIdx
open Cert.RowOps

/-- Two indices of a rank-1, rank-2 or rank-3 shape whose coordinates agree literally. -/
local macro "idx1" : term => `(funext fun a => Fin.ext (by match a with | ⟨0, _⟩ => rfl))
local macro "idx2" : term => `(funext fun a => Fin.ext (by match a with | ⟨0, _⟩ => rfl | ⟨1, _⟩ => rfl))
local macro "idx3" : term => `(funext fun a => Fin.ext (by match a with | ⟨0, _⟩ => rfl | ⟨1, _⟩ => rfl | ⟨2, _⟩ => rfl))

variable (X : FVec Ideal S2x16x16x4x64x512 .f32) (x1 : FVec Ideal S32x64 .f32) (x2 : FVec Ideal S32 .f32)
  (x3 : FVec Ideal S64x32 .f32) (x4 : FVec Ideal S64 .f32) (x5 : FVec Ideal S32x128 .f32)

/-- The literal `1.0` is the extended real `1`. -/
theorem ofBits_one : Ideal.ofBits .f32 0x3F800000#32 = 1 := IdealRules.sign_bit.ideal_onePat .f32

/-- The mean over the channels at `(b, n)`: the pooled value of row `b` of the flattened input. -/
theorem pooled_entry (b : Fin 2048) (n : Fin 64) :
    val_main_v3 (F := Ideal) X (ix2 b n) = Gate.pooled (fun n c => val_main_v0 (F := Ideal) X (ix3 b n c)) n := by
  unfold Gate.pooled
  rw [val_main_v3_apply, val_main_v1_apply, val_main_v2_apply, val_main_cst_0_apply, val_main_cst_apply]
  show Ideal.div (Ideal.ofBits .f32 0x00000000#32 + _) (Ideal.ofBits .f32 0x44000000#32) = _
  rw [Ideal.ofBits_zero_f32, zero_add]
  exact congrArg (fun s => Ideal.div s (Ideal.ofBits .f32 0x44000000#32))
    (Finset.sum_congr rfl fun k _ => congrArg (val_main_v0 (F := Ideal) X) idx3)

/-- The first linear layer at `(b, j)`, from row `b` of the means. -/
theorem lowRank_entry (b : Fin 2048) (j : Fin 32) :
    val_main_v8 (F := Ideal) X x1 x2 (ix2 b j)
      = Gate.lowRank (fun j n => x1 (ix2 j n)) (fun j => x2 (ix1 j)) (fun n => val_main_v3 (F := Ideal) X (ix2 b n)) j := by
  unfold Gate.lowRank
  rw [val_main_v8_apply, val_main_v5_apply, val_main_v7_apply, val_main_v6_apply, Ideal.addf_def]
  refine congrArg₂ (· + ·) (Finset.sum_congr rfl fun k _ => congrArg₂ (· * ·) (congrArg _ idx2) ?_) (congrArg x2 idx1)
  rw [val_main_v4_apply]
  exact congrArg x1 idx2

/-- The scaled scores at `(b, M)`, from row `b` of the low-rank vectors. -/
theorem score_entry (b : Fin 2048) (M : Fin 128) :
    val_main_v11 (F := Ideal) X x1 x2 x5 (ix2 b M)
      = Gate.score (fun j M => x5 (ix2 j M)) (fun j => val_main_v8 (F := Ideal) X x1 x2 (ix2 b j)) M := by
  unfold Gate.score
  rw [val_main_v11_apply, val_main_v9_apply, val_main_v10_apply, val_main_cst_1_apply, Ideal.mulf_def]
  refine congrArg (· * Ideal.ofBits .f32 0x3E3504F3#32)
    (Finset.sum_congr rfl fun k _ => congrArg₂ (· * ·) (congrArg _ idx2) (congrArg x5 idx2))

/-- The row maximum broadcast back along the row, at `(b, M)`. -/
theorem rowMax_entry (b : Fin 2048) (M : Fin 128) :
    val_main_v16 (F := Ideal) X x1 x2 x5 (ix2 b M) = Gate.rowMax (fun M => val_main_v11 (F := Ideal) X x1 x2 x5 (ix2 b M)) := by
  unfold Gate.rowMax
  rw [val_main_v16_apply, val_main_v15_apply, val_main_v14_apply, val_main_v13_apply, val_main_cst_3_apply, Ideal.maximumf_def]
  refine congrArg (max (Ideal.ofBits .f32 0xFF800000#32)) ?_
  have e : idx_main_v15 (idx_main_v16 (ix2 b M)) = ix1 b := idx1
  rw [e]
  unfold val_main_v12
  exact hostRowMax_apply (val_main_v11 (F := Ideal) X x1 x2 x5) (val_main_cst_2 (F := Ideal)) reducesTo_S2048x128_S2048_d1
    (by decide) h_S_ b

/-- The shifted exponentials at `(b, M)`. -/
theorem expo_entry (b : Fin 2048) (M : Fin 128) :
    val_main_v18 (F := Ideal) X x1 x2 x5 (ix2 b M) = Gate.expo (fun M => val_main_v11 (F := Ideal) X x1 x2 x5 (ix2 b M)) M := by
  unfold Gate.expo
  rw [val_main_v18_apply, val_main_v17_apply, rowMax_entry, Ideal.hostUnary_exp_def, Ideal.subf_def]

/-- The softmax at `(b, M)`. -/
theorem attn_entry (b : Fin 2048) (M : Fin 128) :
    val_main_v22 (F := Ideal) X x1 x2 x5 (ix2 b M) = Gate.attn (fun M => val_main_v11 (F := Ideal) X x1 x2 x5 (ix2 b M)) M := by
  unfold Gate.attn
  rw [val_main_v22_apply, val_main_v21_apply, val_main_v20_apply, val_main_v19_apply, val_main_cst_4_apply, expo_entry,
    Ideal.hostDivf_def]
  refine congrArg (Ideal.div _) ?_
  show Ideal.ofBits .f32 0x00000000#32 + _ = _
  rw [Ideal.ofBits_zero_f32, zero_add]
  refine Finset.sum_congr rfl fun k _ => ?_
  have e : idx_main_v19 (idx_main_v20 (idx_main_v21 (ix2 b M))) k = ix2 b k := idx2
  rw [e, expo_entry]

/-- The attention read back through the memory bank at `(b, j)`. -/
theorem readout_entry (b : Fin 2048) (j : Fin 32) :
    val_main_v24 (F := Ideal) X x1 x2 x5 (ix2 b j)
      = Gate.readout (fun j M => x5 (ix2 j M)) (fun M => val_main_v22 (F := Ideal) X x1 x2 x5 (ix2 b M)) j := by
  unfold Gate.readout
  rw [val_main_v24_apply]
  refine Finset.sum_congr rfl fun k _ => congrArg₂ (· * ·) (congrArg _ idx2) ?_
  rw [val_main_v23_apply]
  exact congrArg x5 idx2

/-- The second linear layer and the sigmoid (written out as `1 / (1 + exp (−z))`) at `(b, n)`. -/
theorem squash_entry (b : Fin 2048) (n : Fin 64) :
    val_main_v35 (F := Ideal) X x1 x2 x3 x4 x5 (ix2 b n)
      = Gate.squash (fun n j => x3 (ix2 n j)) (fun n => x4 (ix1 n)) (fun j => val_main_v24 (F := Ideal) X x1 x2 x5 (ix2 b j)) n := by
  unfold Gate.squash
  rw [val_main_v35_apply, val_main_v34_apply, val_main_cst_6_apply, val_main_v33_apply, val_main_v32_apply, val_main_cst_5_apply,
    val_main_v31_apply, val_main_v30_apply, val_main_v29_apply, val_main_v26_apply, val_main_v28_apply, val_main_v27_apply]
  show Ideal.div (Ideal.ofBits .f32 0x3F800000#32) (Ideal.ofBits .f32 0x3F800000#32 + Ideal.exp (-(_ + _))) = _
  rw [ofBits_one]
  refine congrArg Ideal.logistic (congrArg₂ (· + ·)
    (Finset.sum_congr rfl fun k _ => congrArg₂ (· * ·) (congrArg _ idx2) ?_) (congrArg x4 idx1))
  rw [val_main_v25_apply]
  exact congrArg x3 idx2

/-- THE GATE at `(b, n)`: the gate of row `b` of the flattened input. -/
theorem gate_entry (b : Fin 2048) (n : Fin 64) :
    val_main_v35 (F := Ideal) X x1 x2 x3 x4 x5 (ix2 b n)
      = Gate.gate (fun j n => x1 (ix2 j n)) (fun j => x2 (ix1 j)) (fun j M => x5 (ix2 j M)) (fun n j => x3 (ix2 n j))
          (fun n => x4 (ix1 n)) (fun n c => val_main_v0 (F := Ideal) X (ix3 b n c)) n := by
  unfold Gate.gate
  rw [squash_entry]
  have e1 : (fun n => val_main_v3 (F := Ideal) X (ix2 b n)) = Gate.pooled (fun n c => val_main_v0 (F := Ideal) X (ix3 b n c)) :=
    funext fun n => pooled_entry X b n
  have e2 : (fun j => val_main_v8 (F := Ideal) X x1 x2 (ix2 b j)) = Gate.lowRank (fun j n => x1 (ix2 j n)) (fun j => x2 (ix1 j))
      (Gate.pooled (fun n c => val_main_v0 (F := Ideal) X (ix3 b n c))) :=
    funext fun j => (lowRank_entry X x1 x2 b j).trans (by rw [e1])
  have e3 : (fun M => val_main_v11 (F := Ideal) X x1 x2 x5 (ix2 b M)) = Gate.score (fun j M => x5 (ix2 j M))
      (Gate.lowRank (fun j n => x1 (ix2 j n)) (fun j => x2 (ix1 j)) (Gate.pooled (fun n c => val_main_v0 (F := Ideal) X (ix3 b n c)))) :=
    funext fun M => (score_entry X x1 x2 x5 b M).trans (by rw [e2])
  have e4 : (fun M => val_main_v22 (F := Ideal) X x1 x2 x5 (ix2 b M)) = Gate.attn (Gate.score (fun j M => x5 (ix2 j M))
      (Gate.lowRank (fun j n => x1 (ix2 j n)) (fun j => x2 (ix1 j)) (Gate.pooled (fun n c => val_main_v0 (F := Ideal) X (ix3 b n c))))) :=
    funext fun M => (attn_entry X x1 x2 x5 b M).trans (by rw [e3])
  have e5 : (fun j => val_main_v24 (F := Ideal) X x1 x2 x5 (ix2 b j)) = Gate.readout (fun j M => x5 (ix2 j M)) (Gate.attn (Gate.score (fun j M => x5 (ix2 j M))
      (Gate.lowRank (fun j n => x1 (ix2 j n)) (fun j => x2 (ix1 j)) (Gate.pooled (fun n c => val_main_v0 (F := Ideal) X (ix3 b n c)))))) :=
    funext fun j => (readout_entry X x1 x2 x5 b j).trans (by rw [e4])
  rw [e5]

end Cert.ReferenceIdeal.RefValue

end
-- ==== Proof.RefResult.lean ====
/-
  The reference's result is `Scaled.result` of its arguments: at an index `(i0, i1, i2, i3, n, c)` it is the
  input's entry times the gate array's entry at `(i0, i1, i2, i3, n, 0)`, and that gate array is the 2048 × 64
  gates viewed with six axes, so the factor is the gate of row `rowOf i0 i1 i2 i3` of the flattened input at `n`.
-/
import proofs.«102035_j14448269984372_1_alg».proof.Proof.RefGate
import proofs.«102035_j14448269984372_1_alg».proof.Proof.Scaled

noncomputable section

namespace Cert.ReferenceIdeal.RefValue

open Cert.ReferenceIdeal Cert.ReferenceIdeal.Gen Cert.ReferenceIdeal.Read Idealize.ShloMosaic Idealize.ShloMosaic.ValueIdx

/-- The reference's composed term is the whole result, index by index. -/
theorem result_eq (X : FVec Ideal S2x16x16x4x64x512 .f32) (x1 : FVec Ideal S32x64 .f32) (x2 : FVec Ideal S32 .f32)
    (x3 : FVec Ideal S64x32 .f32) (x4 : FVec Ideal S64 .f32) (x5 : FVec Ideal S32x128 .f32)
    (h1 : Scaled.S6.ShapeCasts Scaled.S3) (h2 : Scaled.S3.ShapeCasts Scaled.S6) :
    val_main_v38 (F := Ideal) X x1 x2 x3 x4 x5 = Scaled.result X x1 x2 x3 x4 x5 h1 h2 := by
  funext i
  obtain ⟨i0, i1, i2, i3, n, c, rfl⟩ : ∃ (i0 : Fin 2) (i1 : Fin 16) (i2 : Fin 16) (i3 : Fin 4) (n : Fin 64) (c : Fin 512),
      i = ix6 i0 i1 i2 i3 n c := ⟨i 0, i 1, i 2, i 3, i 4, i 5, eq_ix6 i⟩
  rw [Scaled.result_apply, val_main_v38_apply, val_main_v37_apply, Ideal.mulf_def]
  refine congrArg (X (ix6 i0 i1 i2 i3 n c) * ·) ?_
  have e : idx_main_v37 (ix6 i0 i1 i2 i3 n c) = ix6 i0 i1 i2 i3 n (0 : Fin 1) := funext fun a => Fin.ext (by
    match a with
    | ⟨0, _⟩ => rfl
    | ⟨1, _⟩ => rfl
    | ⟨2, _⟩ => rfl
    | ⟨3, _⟩ => rfl
    | ⟨4, _⟩ => rfl
    | ⟨5, _⟩ => rfl)
  rw [e]
  unfold val_main_v36
  refine (Scaled.gates_apply (val_main_v35 (F := Ideal) X x1 x2 x3 x4 x5) _ i0 i1 i2 i3 n 0).trans ?_
  rw [gate_entry]
  rfl

end Cert.ReferenceIdeal.RefValue

end
-- ==== Proof.lean ====
/-
  The five claims of this certificate.

  The kernel program and the reference compute, on the extended reals, the same function of their six arguments:
  the input scaled, row by row of its flattening to 2048 rows of 64 × 512, by the channel-attention gate of that
  row (`Scaled.result`; the gate itself is module Gate).  The kernel side is module KernelValue (each grid point
  writes back its 64 rows of that function, and the blocks tile the output), the reference side is modules RefGate
  and RefResult (each stage of the host program, read in a row, is the corresponding step of the gate).  The two
  differ only in how sums are grouped and in the sigmoid, which the kernel applies as one operation and the
  reference spells `1 / (1 + exp (−z))` — one function on the extended reals; no law that needs finite values is
  used, so the precondition is never opened.  The three frames are the generated ones (the reference's is its
  generated run with the result dropped); nothing was rewritten by the ideal pass, so `preserves` is `True`.
-/
import proofs.«102035_j14448269984372_1_alg».proof.Defs
import proofs.«102035_j14448269984372_1_alg».proof.Proof.Gen.Kernel
import proofs.«102035_j14448269984372_1_alg».proof.Proof.Gen.Kernel.Skeleton
import proofs.«102035_j14448269984372_1_alg».proof.Proof.Gen.Kernel.Launch
import proofs.«102035_j14448269984372_1_alg».proof.Proof.Gen.Kernel.Points
import proofs.«102035_j14448269984372_1_alg».proof.Proof.Gen.Kernel.Frame
import proofs.«102035_j14448269984372_1_alg».proof.Proof.Gen.KernelIdeal
import proofs.«102035_j14448269984372_1_alg».proof.Proof.Gen.KernelIdeal.Skeleton
import proofs.«102035_j14448269984372_1_alg».proof.Proof.Gen.KernelIdeal.Launch
import proofs.«102035_j14448269984372_1_alg».proof.Proof.Gen.KernelIdeal.Points
import proofs.«102035_j14448269984372_1_alg».proof.Proof.Gen.KernelIdeal.Frame
import proofs.«102035_j14448269984372_1_alg».proof.Proof.Gen.ReferenceIdeal
import proofs.«102035_j14448269984372_1_alg».proof.Proof.Gen.Pre_finite_inputs
import proofs.«102035_j14448269984372_1_alg».proof.Proof.Gen.ReferenceIdeal.Run
import proofs.«102035_j14448269984372_1_alg».proof.Proof.Gen.ReferenceIdeal.Read
import proofs.«102035_j14448269984372_1_alg».proof.Proof.KernelValue
import proofs.«102035_j14448269984372_1_alg».proof.Proof.RefResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the result array at `Scaled.result` of the arguments: the kernel's run says so directly,
    the reference's composed term is that function index by index, and the arguments agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v38_eq m' c, a0, a1, a2, a3, a4, a5]
  exact Cert.ReferenceIdeal.RefValue.result_eq _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
